-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x2048x4 : Shape := ⟨4, ![2, 32, 2048, 4]⟩
abbrev S32x2048x4 : Shape := ⟨3, ![32, 2048, 4]⟩
abbrev S_ : Shape := ⟨0, ![]⟩

class Facts : Prop where
  bcast_S_S2x32x2048x4 : S_.BroadcastsInDim S2x32x2048x4 (![] : Fin 0 → Fin S2x32x2048x4.rank)
  reducesTo_S2x32x2048x4_S_d0_1_2_3 : S2x32x2048x4.ReducesTo [0, 1, 2, 3] S_
  h_S_ : 0 < S_.numel
  bcast_S_S32x2048x4 : S_.BroadcastsInDim S32x2048x4 (![] : Fin 0 → Fin S32x2048x4.rank)
  reducesTo_S32x2048x4_S_d0_1_2 : S32x2048x4.ReducesTo [0, 1, 2] S_

variable [Facts]

def fn {F : FTy → Type} [FloatOps F] (main_arg0 : FVec F S2x32x2048x4 .f32) (main_arg1 : FVec F S32x2048x4 .f32) : IVec S_ 1 :=
  let main_v0 : FVec F S2x32x2048x4 .f32 := Host.absf main_arg0
  let main_cst : FVec F S_ .f32 := constant S_ .f32 0x7F800000#32
  let main_v1 : FVec F S2x32x2048x4 .f32 := broadcastInDim S2x32x2048x4 ![] bcast_S_S2x32x2048x4 main_cst
  let main_v2 : IVec S2x32x2048x4 1 := cmpf .olt main_v0 main_v1
  let main_c : IVec S_ 1 := constantI S_ 1 1#1
  let main_v3 : IVec S_ 1 := (fun x v => Host.reduce IntOp.andi x v reducesTo_S2x32x2048x4_S_d0_1_2_3 h_S_) main_v2 main_c
  let main_v4 : FVec F S32x2048x4 .f32 := Host.absf main_arg1
  let main_cst_0 : FVec F S_ .f32 := constant S_ .f32 0x7F800000#32
  let main_v5 : FVec F S32x2048x4 .f32 := broadcastInDim S32x2048x4 ![] bcast_S_S32x2048x4 main_cst_0
  let main_v6 : IVec S32x2048x4 1 := cmpf .olt main_v4 main_v5
  let main_c_1 : IVec S_ 1 := constantI S_ 1 1#1
  let main_v7 : IVec S_ 1 := (fun x v => Host.reduce IntOp.andi x v reducesTo_S32x2048x4_S_d0_1_2 h_S_) main_v6 main_c_1
  let main_v8 : IVec S_ 1 := andi main_v3 main_v7
  main_v8
-- ==== Kernel.lean ====
abbrev S2x32x2048x4 : Shape := ⟨4, ![2, 32, 2048, 4]⟩
abbrev S32x2048x4 : Shape := ⟨3, ![32, 2048, 4]⟩
abbrev S1x32x2048x4 : Shape := ⟨4, ![1, 32, 2048, 4]⟩
abbrev S32x2048x3 : Shape := ⟨3, ![32, 2048, 3]⟩
abbrev S32x1x2048 : Shape := ⟨3, ![32, 1, 2048]⟩
abbrev S1x256x3 : Shape := ⟨3, ![1, 256, 3]⟩
abbrev S1x2048x3 : Shape := ⟨3, ![1, 2048, 3]⟩
abbrev S1x1x256 : Shape := ⟨3, ![1, 1, 256]⟩
abbrev S1x1x2048 : Shape := ⟨3, ![1, 1, 2048]⟩
abbrev S256x3 : Shape := ⟨2, ![256, 3]⟩
abbrev S2048x3 : Shape := ⟨2, ![2048, 3]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S1x2048 : Shape := ⟨2, ![1, 2048]⟩
abbrev S3x2048 : Shape := ⟨2, ![3, 2048]⟩
abbrev S256x2048 : Shape := ⟨2, ![256, 2048]⟩
abbrev S1x256 : Shape := ⟨2, ![1, 256]⟩
abbrev S32x2048 : Shape := ⟨2, ![32, 2048]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S2x32x2048x4, .f32⟩
  | .hbm, ⟨1, _⟩ => ⟨S32x2048x4, .f32⟩
  | .hbm, ⟨2, _⟩ => ⟨S1x32x2048x4, .f32⟩
  | .hbm, ⟨3, _⟩ => ⟨S32x2048x4, .f32⟩
  | .hbm, ⟨4, _⟩ => ⟨S32x2048x3, .f32⟩
  | .hbm, ⟨5, _⟩ => ⟨S32x2048x3, .f32⟩
  | .hbm, ⟨6, _⟩ => ⟨S32x1x2048, .f32⟩
  | .hbm, ⟨7, _⟩ => ⟨S32x1x2048, .f32⟩
  | .hbm, ⟨8, _⟩ => ⟨S32x2048, .f32⟩
  | .hbm, ⟨9, _⟩ => ⟨S32x2048, .f32⟩
  | .hbm, ⟨10, _⟩ => ⟨S32x2048, .f32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S_, .f32⟩
  | .hbm, ⟨15, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x2048x3, .f32⟩
  | .local _ .vmem, ⟨3, _⟩ => ⟨S1x2048x3, .f32⟩
  | .local _ .vmem, ⟨4, _⟩ => ⟨S1x1x256, .f32⟩
  | .local _ .vmem, ⟨5, _⟩ => ⟨S1x1x256, .f32⟩
  | .local _ .vmem, ⟨6, _⟩ => ⟨S1x1x2048, .f32⟩
  | .local _ .vmem, ⟨7, _⟩ => ⟨S1x1x2048, .f32⟩
  | _, _ => ⟨S2x32x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x32x2048x4_S1x32x2048x4_0_0_0_0 : S2x32x2048x4.Slices ![0, 0, 0, 0] S1x32x2048x4
  shapeCasts_S1x32x2048x4_S32x2048x4 : S1x32x2048x4.ShapeCasts S32x2048x4
  slices_S32x2048x4_S32x2048x3_0_0_1 : S32x2048x4.Slices ![0, 0, 1] S32x2048x3
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  reduces_S256x3_S256 : S256x3.Reduces [1] S256
  shapeCasts_S256_S256x1 : S256.ShapeCasts S256x1
  reduces_S2048x3_S2048 : S2048x3.Reduces [1] S2048
  shapeCasts_S2048_S2048x1 : S2048.ShapeCasts S2048x1
  transposes_S2048x1_p1_0_S1x2048 : S2048x1.Transposes [1, 0] S1x2048
  transposes_S2048x3_p1_0_S3x2048 : S2048x3.Transposes [1, 0] S3x2048
  broadcasts_S256x1_S256x2048 : S256x1.Broadcasts S256x2048
  broadcasts_S1x2048_S256x2048 : S1x2048.Broadcasts S256x2048
  reduces_S256x2048_S256 : S256x2048.Reduces [1] S256
  transposes_S256x1_p1_0_S1x256 : S256x1.Transposes [1, 0] S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reduces_S256x2048_S2048 : S256x2048.Reduces [0] S2048
  shapeCasts_S2048_S1x2048 : S2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S32x1x2048_S32x2048 : S32x1x2048.ShapeCasts S32x2048
  bcast_S_S32x2048 : S_.BroadcastsInDim S32x2048 (![] : Fin 0 → Fin S32x2048.rank)
  reducesTo_S32x2048_S_d0_1 : S32x2048.ReducesTo [0, 1] S_
  h_S_ : 0 < S_.numel
  dot_S256x3_S3x2048_S256x2048_1_0_0_1_n_n_wf : DotDims.WF S256x3 S3x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S32x2048x3.size a
  hwx0_0 : ∀ i : grid0.Coords, EltTy.bits .f32 = 32 ∨ (Rect.block (s := S32x2048x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S32x2048x3.size a
  hwx0_1 : ∀ i : grid0.Coords, EltTy.bits .f32 = 32 ∨ (Rect.block (s := S32x2048x3) S1x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S32x1x2048.size a
  hwx0_2 : ∀ i : grid0.Coords, EltTy.bits .f32 = 32 ∨ (Rect.block (s := S32x1x2048) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S32x1x2048.size a
  hwx0_3 : ∀ i : grid0.Coords, EltTy.bits .f32 = 32 ∨ (Rect.block (s := S32x1x2048) S1x1x2048.size (cc0_transform_3 i) (hinb0_3 i)).WholeWords (EltTy.packing .f32)

variable [Facts₀]

def dot_S256x3_S3x2048_S256x2048_1_0_0_1_n_n : DotDims S256x3 S3x2048 S256x2048 where
  lhsContracting := [1]
  rhsContracting := [0]
  lhsNonContracting := [0]
  rhsNonContracting := [1]
  lhsBatch := []
  rhsBatch := []
  wf := dot_S256x3_S3x2048_S256x2048_1_0_0_1_n_n_wf

abbrev win0_0 : Pipeline.Window sig grid0 :=
  Pipeline.Window.ofSpec (Memref.whole main_v2) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x32x2048x4 : Shape := ⟨4, ![2, 32, 2048, 4]⟩
abbrev S32x2048x4 : Shape := ⟨3, ![32, 2048, 4]⟩
abbrev S1x32x2048x4 : Shape := ⟨4, ![1, 32, 2048, 4]⟩
abbrev S32x2048x3 : Shape := ⟨3, ![32, 2048, 3]⟩
abbrev S_ : Shape := ⟨0, ![]⟩
abbrev S32x2048 : Shape := ⟨2, ![32, 2048]⟩
abbrev S32x2048x2048 : Shape := ⟨3, ![32, 2048, 2048]⟩
abbrev S32x2048x1 : Shape := ⟨3, ![32, 2048, 1]⟩
abbrev S32x1x2048 : Shape := ⟨3, ![32, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2x32x2048x4, .f32⟩
  | .hbm, ⟨1, _⟩ => ⟨S32x2048x4, .f32⟩
  | .hbm, ⟨2, _⟩ => ⟨S1x32x2048x4, .f32⟩
  | .hbm, ⟨3, _⟩ => ⟨S32x2048x4, .f32⟩
  | .hbm, ⟨4, _⟩ => ⟨S32x2048x3, .f32⟩
  | .hbm, ⟨5, _⟩ => ⟨S32x2048x3, .f32⟩
  | .hbm, ⟨6, _⟩ => ⟨S32x2048x3, .f32⟩
  | .hbm, ⟨7, _⟩ => ⟨S_, .f32⟩
  | .hbm, ⟨8, _⟩ => ⟨S32x2048, .f32⟩
  | .hbm, ⟨9, _⟩ => ⟨S32x2048x3, .f32⟩
  | .hbm, ⟨10, _⟩ => ⟨S_, .f32⟩
  | .hbm, ⟨11, _⟩ => ⟨S32x2048, .f32⟩
  | .hbm, ⟨12, _⟩ => ⟨S32x2048x2048, .f32⟩
  | .hbm, ⟨13, _⟩ => ⟨S32x2048x1, .f32⟩
  | .hbm, ⟨14, _⟩ => ⟨S32x1x2048, .f32⟩
  | .hbm, ⟨15, _⟩ => ⟨S32x2048x2048, .f32⟩
  | .hbm, ⟨16, _⟩ => ⟨S32x2048x2048, .f32⟩
  | .hbm, ⟨17, _⟩ => ⟨S32x2048x2048, .f32⟩
  | .hbm, ⟨18, _⟩ => ⟨S_, .f32⟩
  | .hbm, ⟨19, _⟩ => ⟨S32x2048x2048, .f32⟩
  | .hbm, ⟨20, _⟩ => ⟨S32x2048x2048, .f32⟩
  | .hbm, ⟨21, _⟩ => ⟨S32x2048x2048, .f32⟩
  | .hbm, ⟨22, _⟩ => ⟨S_, .f32⟩
  | .hbm, ⟨23, _⟩ => ⟨S32x2048x2048, .f32⟩
  | .hbm, ⟨24, _⟩ => ⟨S32x2048x2048, .f32⟩
  | .hbm, ⟨25, _⟩ => ⟨S_, .f32⟩
  | .hbm, ⟨26, _⟩ => ⟨S32x2048x2048, .f32⟩
  | .hbm, ⟨27, _⟩ => ⟨S32x2048x2048, .f32⟩
  | .hbm, ⟨28, _⟩ => ⟨S32x2048x2048, .f32⟩
  | .hbm, ⟨29, _⟩ => ⟨S_, .f32⟩
  | .hbm, ⟨30, _⟩ => ⟨S32x2048, .f32⟩
  | .hbm, ⟨31, _⟩ => ⟨S_, .f32⟩
  | .hbm, ⟨32, _⟩ => ⟨S32x2048, .f32⟩
  | .hbm, ⟨33, _⟩ => ⟨S32x2048, .f32⟩
  | .hbm, ⟨34, _⟩ => ⟨S_, .f32⟩
  | .hbm, ⟨35, _⟩ => ⟨S32x2048, .f32⟩
  | .hbm, ⟨36, _⟩ => ⟨S32x2048, .f32⟩
  | .hbm, ⟨37, _⟩ => ⟨S_, .f32⟩
  | .hbm, ⟨38, _⟩ => ⟨S_, .f32⟩
  | _, _ => ⟨S2x32x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S2x32x2048x4_S1x32x2048x4_0_0_0_0 : S2x32x2048x4.Slices ![0, 0, 0, 0] S1x32x2048x4
  shapeCasts_S1x32x2048x4_S32x2048x4 : S1x32x2048x4.ShapeCasts S32x2048x4
  slices_S32x2048x4_S32x2048x3_0_0_1 : S32x2048x4.Slices ![0, 0, 1] S32x2048x3
  reducesTo_S32x2048x3_S32x2048_d2 : S32x2048x3.ReducesTo [2] S32x2048
  h_S_ : 0 < S_.numel
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S32x2048_d2 : S32x2048x2048.ReducesTo [2] S32x2048
  reducesTo_S32x2048x2048_S32x2048_d1 : S32x2048x2048.ReducesTo [1] S32x2048
  bcast_S_S32x2048 : S_.BroadcastsInDim S32x2048 (![] : Fin 0 → Fin S32x2048.rank)
  reducesTo_S32x2048_S_d0_1 : S32x2048.ReducesTo [0, 1] S_
  dot_S32x2048x3_S32x2048x3_S32x2048x2048_2_2_1_1_0_0_wf : DotDims.WF S32x2048x3 S32x2048x3 S32x2048x2048 [2] [2] [1] [1] [0] [0]

variable [Facts₀]

def dot_S32x2048x3_S32x2048x3_S32x2048x2048_2_2_1_1_0_0 : DotDims S32x2048x3 S32x2048x3 S32x2048x2048 where
  lhsContracting := [2]
  rhsContracting := [2]
  lhsNonContracting := [1]
  rhsNonContracting := [1]
  lhsBatch := [0]
  rhsBatch := [0]
  wf := dot_S32x2048x3_S32x2048x3_S32x2048x2048_2_2_1_1_0_0_wf

class Facts : Prop extends Facts₀ where

variable [Facts]
-- ==== Proof.KernelPieces.lean ====
/-
  What one run of the kernel body leaves in its two output blocks, as values of the two input blocks.

  The body has two cases. At the first tile of a batch it resets the column-minimum block to `+∞` before folding the
  tile's column minima into it; at a later tile it folds them into what the previous tile left. In both cases the
  row-minimum block is overwritten whole with the tile's row minima. Each block is covered by the body's last store to
  it, so what the block holds afterwards is that store's value, read here as a function of the loaded blocks.
-/
import proofs.«169854_j16844861735655_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl

/-- In the first tile of a batch the body leaves, in the row-minimum block, the row minima of the tile's distances. -/
theorem out_A_2 (c : Dev nD) (i : grid0.Coords) (a2 : Memref sig .tc .vmem S1x256x3 .f32) (h2 : a2.IsWhole)
    (a3 : Memref sig .tc .vmem S1x2048x3 .f32) (h3 : a3.IsWhole) (a4 : Memref sig .tc .vmem S1x1x256 .f32) (h4 : a4.IsWhole)
    (a5 : Memref sig .tc .vmem S1x1x2048 .f32) (h5 : a5.IsWhole) (hc : cond0_0 i)
    (x0 : Vec F S1x256x3 .f32) (x1 : Vec F S1x2048x3 .f32) :
    out0_A_2 c i a2 h2 a3 h3 a4 h4 a5 h5 hc x0 x1 = k0_pay3 x0 x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz3]
  simp only [View.readAt_eq_ld, h2.read_unread, h3.read_unread, View.ld_unit_zero (S := S1x256x3) hz3,
    View.ld_unit_zero (S := S1x2048x3) hz3]

/-- In a later tile likewise: the row-minimum block does not depend on what the column-minimum block held. -/
theorem out_B_2 (c : Dev nD) (i : grid0.Coords) (a2 : Memref sig .tc .vmem S1x256x3 .f32) (h2 : a2.IsWhole)
    (a3 : Memref sig .tc .vmem S1x2048x3 .f32) (h3 : a3.IsWhole) (a4 : Memref sig .tc .vmem S1x1x256 .f32) (h4 : a4.IsWhole)
    (a5 : Memref sig .tc .vmem S1x1x2048 .f32) (h5 : a5.IsWhole) (hc : ¬cond0_0 i)
    (x0 : Vec F S1x256x3 .f32) (x1 : Vec F S1x2048x3 .f32) (xo : Vec F S1x1x2048 .f32) :
    out0_B_2 c i a2 h2 a3 h3 a4 h4 a5 h5 hc x0 x1 xo = k0_pay3 x0 x1 := by
  unfold out0_B_2
  rw [View.read_writes_eq_canon _ _ _ (cover0_B_2 c i a2 h2 a3 h3 a4 h4 a5 h5 hc x0 x1 xo)]
  unfold kernelRun0_B
  dsimp only
  sl_unfold_words
  rw [View.canon_unit_zero hz3]
  simp only [View.readAt_eq_ld, h2.read_unread, h3.read_unread, View.ld_unit_zero (S := S1x256x3) hz3,
    View.ld_unit_zero (S := S1x2048x3) hz3]

/-- In the first tile of a batch the column-minimum block is reset to `+∞` and the tile's column minima are folded
    into that. -/
theorem out_A_3 (c : Dev nD) (i : grid0.Coords) (a2 : Memref sig .tc .vmem S1x256x3 .f32) (h2 : a2.IsWhole)
    (a3 : Memref sig .tc .vmem S1x2048x3 .f32) (h3 : a3.IsWhole) (a4 : Memref sig .tc .vmem S1x1x256 .f32) (h4 : a4.IsWhole)
    (a5 : Memref sig .tc .vmem S1x1x2048 .f32) (h5 : a5.IsWhole) (hc : cond0_0 i)
    (x0 : Vec F S1x256x3 .f32) (x1 : Vec F S1x2048x3 .f32) :
    out0_A_3 c i a2 h2 a3 h3 a4 h4 a5 h5 hc x0 x1 = k0_pay1 (k0_pay4 x0 x1) (k0_pay5 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x2048) hz3, View.readCov_unit_zero (S := S1x1x2048) _ hz3]
  simp only [View.readAt_eq_ld, h2.read_unread, h3.read_unread, View.ld_unit_zero (S := S1x256x3) hz3,
    View.ld_unit_zero (S := S1x2048x3) hz3]

/-- In a later tile the tile's column minima are folded into what the tile before left. -/
theorem out_B_3 (c : Dev nD) (i : grid0.Coords) (a2 : Memref sig .tc .vmem S1x256x3 .f32) (h2 : a2.IsWhole)
    (a3 : Memref sig .tc .vmem S1x2048x3 .f32) (h3 : a3.IsWhole) (a4 : Memref sig .tc .vmem S1x1x256 .f32) (h4 : a4.IsWhole)
    (a5 : Memref sig .tc .vmem S1x1x2048 .f32) (h5 : a5.IsWhole) (hc : ¬cond0_0 i)
    (x0 : Vec F S1x256x3 .f32) (x1 : Vec F S1x2048x3 .f32) (xo : Vec F S1x1x2048 .f32) :
    out0_B_3 c i a2 h2 a3 h3 a4 h4 a5 h5 hc x0 x1 xo = k0_pay1 (k0_pay4 x0 x1) xo := by
  unfold out0_B_3
  rw [View.read_writes_eq_canon _ _ _ (cover0_B_3 c i a2 h2 a3 h3 a4 h4 a5 h5 hc x0 x1 xo)]
  unfold kernelRun0_B
  dsimp only
  sl_unfold_words
  rw [View.canon_unit_zero hz3]
  simp only [View.readAt_eq_ld, h2.read_unread, h3.read_unread, h5.read_unread, View.ld_unit_zero (S := S1x256x3) hz3,
    View.ld_unit_zero (S := S1x2048x3) hz3, View.ld_unit_zero (S := S1x1x2048) hz3]

end Cert.KernelIdeal.Pieces

end
-- ==== Proof.Spec.lean ====
/-
  The chamfer distance both programs compute, stated once over the two point clouds.

  For batch `b`, point `n` of the first cloud and point `k` of the second (three coordinates each) the entry is
  `sqrt (max (|p|² + |q|² - 2 p·q) 0 + ε)`; the loss sums, over the batch, every point's distance to its nearest
  neighbour in the other cloud, in both directions. A nearest-neighbour distance is a minimum over 2048 entries,
  written here as a fold of `min` from the float `+∞`. A minimum is determined by its lower bounds
  (`c ≤ min` of a family iff `c` is below the start value and below every member), and that is how the minimum
  taken tile by tile — 256 rows at a time, eight tiles, each folded into a running minimum — is identified with the
  minimum over all 2048 rows: both have the same lower bounds.
-/
import Idealize.ShloMosaic.PureOps.Ideal
import Idealize.ShloMosaic.Lib.ValueIdx

noncomputable section

namespace Cert.Chamfer

open Idealize.ShloMosaic Idealize.ShloMosaic.ValueIdx

/-- A cloud: 32 batches of 2048 points with three coordinates. -/
abbrev Pts : Shape := ⟨3, ![32, 2048, 3]⟩

/-- The value every minimum starts from: the float `+∞`. -/
abbrev start : EReal := Ideal.ofBits .f32 0x7F800000#32

/-- The squared length of point `n` of batch `b`. -/
def sqLen (X : Pts.Idx → EReal) (b : Fin 32) (n : Fin 2048) : EReal := ∑ d : Fin 3, X (ix3 b n d) * X (ix3 b n d)

/-- The inner product of point `n` of `P` and point `k` of `Q` in batch `b`. -/
def inner3 (P Q : Pts.Idx → EReal) (b : Fin 32) (n k : Fin 2048) : EReal := ∑ d : Fin 3, P (ix3 b n d) * Q (ix3 b k d)

/-- One entry from the two squared lengths and the inner product: `sqrt (max (x² + y² - 2·xy) 0 + ε)`, the constants
    the float words both programs carry (2, 0 and the float nearest 1e-16). -/
def entry (x2 y2 xy : EReal) : EReal :=
  Ideal.sqrt (max ((x2 + y2) - Ideal.ofBits .f32 0x40000000#32 * xy) (Ideal.ofBits .f32 0x00000000#32)
    + Ideal.ofBits .f32 0x24E69595#32)

/-- The distance between point `n` of `P` and point `k` of `Q` in batch `b`. -/
def pdist (P Q : Pts.Idx → EReal) (b : Fin 32) (n k : Fin 2048) : EReal := entry (sqLen P b n) (sqLen Q b k) (inner3 P Q b n k)

/-- Point `n`'s distance to its nearest neighbour in `Q`. -/
def rowMin (P Q : Pts.Idx → EReal) (b : Fin 32) (n : Fin 2048) : EReal :=
  Finset.univ.fold min start fun k : Fin 2048 => pdist P Q b n k

/-- Point `k` of `Q`'s distance to its nearest neighbour in `P`. -/
def colMin (P Q : Pts.Idx → EReal) (b : Fin 32) (k : Fin 2048) : EReal :=
  Finset.univ.fold min start fun n : Fin 2048 => pdist P Q b n k

/-! ## A minimum by its lower bounds -/

/-- The lower bounds of a fold of `min` over a whole finite type: those of the start value and of every member. -/
theorem le_foldMin_iff {ι : Type} [Fintype ι] (I : EReal) (g : ι → EReal) (c : EReal) :
    c ≤ Finset.univ.fold min I g ↔ c ≤ I ∧ ∀ i, c ≤ g i := by
  rw [Finset.le_fold_min]
  exact and_congr_right fun _ => ⟨fun h i => h i (Finset.mem_univ i), fun h i _ => h i⟩

/-- `c` is below the start value and below the first `J` tiles of 256 rows. -/
def Below (I : EReal) (g : Fin 2048 → EReal) (J : ℕ) (c : EReal) : Prop :=
  c ≤ I ∧ ∀ n : Fin 2048, n.val < J * 256 → c ≤ g n

/-- The minimum over tile `J`: rows `256 J … 256 J + 255`. -/
def tileMin (I : EReal) (g : Fin 2048 → EReal) (J : ℕ) (hJ : J < 8) : EReal :=
  Finset.univ.fold min I fun r : Fin 256 => g ⟨J * 256 + r.val, by have := r.isLt; omega⟩

/-- The first tile folded into the start value has the lower bounds of one tile. -/
theorem below_first (I : EReal) (g : Fin 2048 → EReal) (c : EReal) :
    c ≤ min I (tileMin I g 0 (by decide)) ↔ Below I g 1 c := by
  unfold tileMin Below
  rw [le_min_iff, le_foldMin_iff]
  constructor
  · rintro ⟨hI, -, h⟩
    refine ⟨hI, fun n hn => ?_⟩
    have := h ⟨n.val, by omega⟩
    have e : (⟨0 * 256 + n.val, by omega⟩ : Fin 2048) = n := Fin.ext (by simp)
    simpa [e] using this
  · rintro ⟨hI, h⟩
    exact ⟨hI, hI, fun r => h _ (by have := r.isLt; simp only; omega)⟩

/-- The same with the tile's number a variable known to be zero. -/
theorem below_first_of (I : EReal) (g : Fin 2048 → EReal) (J : ℕ) (hJ : J < 8) (h0 : J = 0) (c : EReal) :
    c ≤ min I (tileMin I g J hJ) ↔ Below I g (J + 1) c := by
  subst h0; exact below_first I g c

/-- Folding tile `J` into a value with the lower bounds of the first `J` tiles gives the lower bounds of `J + 1`. -/
theorem below_next (I : EReal) (g : Fin 2048 → EReal) (J : ℕ) (hJ : J < 8) (x : EReal)
    (hx : ∀ c, c ≤ x ↔ Below I g J c) (c : EReal) :
    c ≤ min x (tileMin I g J hJ) ↔ Below I g (J + 1) c := by
  unfold tileMin
  rw [le_min_iff, le_foldMin_iff, hx c]
  unfold Below
  constructor
  · rintro ⟨⟨hI, h⟩, -, h'⟩
    refine ⟨hI, fun n hn => ?_⟩
    by_cases hlt : n.val < J * 256
    · exact h n hlt
    · have := h' ⟨n.val - J * 256, by omega⟩
      have e : (⟨J * 256 + (n.val - J * 256), by omega⟩ : Fin 2048) = n := Fin.ext (by simp only; omega)
      simpa [e] using this
  · rintro ⟨hI, h⟩
    exact ⟨⟨hI, fun n hn => h n (by omega)⟩, hI, fun r => h _ (by have := r.isLt; simp only; omega)⟩

/-- A value with the lower bounds of all eight tiles is the minimum over all 2048 rows. -/
theorem eq_foldMin_of_below (I : EReal) (g : Fin 2048 → EReal) (x : EReal) (hx : ∀ c, c ≤ x ↔ Below I g 8 c) :
    x = Finset.univ.fold min I g :=
  eq_of_forall_le_iff fun c => by
    rw [hx c, le_foldMin_iff]
    exact and_congr_right fun _ => ⟨fun h n => h n n.isLt, fun h n _ => h n⟩

end Cert.Chamfer

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.KernelPay.lean ====
/-
  The body's arithmetic read entry by entry over the extended reals.

  From a tile of 256 points of the first cloud and the 2048 points of the second, the body forms the 256 × 2048 matrix
  of distances: the squared lengths are lane sums of three products, the inner products a three-term matrix product,
  and each entry is `sqrt (max (x² + y² - 2 xy) 0 + ε)`. It then takes the minimum of every row (256 values, laid
  out as one row) and the minimum of every column (2048 values), both as folds of `min` from `+∞`, and folds the
  column minima into the running block.
-/
import proofs.«169854_j16844861735655_2_alg».proof.Proof.Gen.KernelIdeal.Skeleton
import proofs.«169854_j16844861735655_2_alg».proof.Proof.Spec
import proofs.«169854_j16844861735655_2_alg».proof.Proof.LibPlainProduct
import proofs.«169854_j16844861735655_2_alg».proof.Proof.LibColumn
import proofs.«169854_j16844861735655_2_alg».proof.Proof.LibRepeat
import Idealize.ShloMosaic.Lib.ValueLayout
import Idealize.ShloMosaic.PureOps.Ideal.Laws
import Idealize.ShloMosaic.PureOps.Reduce

noncomputable section

namespace Cert.Chamfer

open Idealize.ShloMosaic Idealize.ShloMosaic.ValueIdx
open Cert.Lib.Column Cert.Lib.Repeat Cert.PlainProduct

/-! ## The reductions at an index -/

/-- The lane sum of a three-column matrix at row `r`. -/
theorem rowSum3_apply {a : ℕ} (v : FVec Ideal ⟨2, ![a, 3]⟩ .f32) (h : (⟨2, ![a, 3]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ d : Fin 3, v (ix2 r d) :=
  (Ideal.multiReduction_add_single v 0x00000000#32 h hφ hacc (ix1 r)).trans
    (Finset.sum_congr rfl fun d _ => congrArg v (funext fun c => match c with | ⟨0, _⟩ => rfl | ⟨1, _⟩ => rfl))

/-- The minimum along a row, from `+∞`. -/
theorem rowMin_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (r : Fin a) :
    multiReduction .minimumf [1] ⟨1, ![a]⟩ v 0x7F800000#32 h hφ hacc (ix1 r)
      = Finset.univ.fold min start fun k : Fin b => v (ix2 r k) :=
  (multiReduction_minimumf_eq_fold v 0x7F800000#32 h hφ hacc (ix1 r)).trans
    ((h.fold_filter_drop_single FloatOps.minimumf (FloatOps.ofBits .f32 0x7F800000#32) v (ix1 r)).trans
      (congrArg (Finset.univ.fold min start) (funext fun k => congrArg v
        (funext fun c => match c with | ⟨0, _⟩ => rfl | ⟨1, _⟩ => rfl))))

/-- The minimum down a column, from `+∞`. -/
theorem colMin_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (k : Fin b) :
    multiReduction .minimumf [0] ⟨1, ![b]⟩ v 0x7F800000#32 h hφ hacc (ix1 k)
      = Finset.univ.fold min start fun r : Fin a => v (ix2 r k) :=
  (multiReduction_minimumf_eq_fold v 0x7F800000#32 h hφ hacc (ix1 k)).trans
    ((h.fold_filter_drop_single FloatOps.minimumf (FloatOps.ofBits .f32 0x7F800000#32) v (ix1 k)).trans
      (congrArg (Finset.univ.fold min start) (funext fun r => congrArg v
        (funext fun c => match c with | ⟨0, _⟩ => rfl | ⟨1, _⟩ => rfl))))

/-- The squared lengths of the rows of a `[1, a, 3]` block, laid out as a column. -/
theorem sqCol_apply {a : ℕ} (x : FVec Ideal ⟨3, ![1, a, 3]⟩ .f32) (hc : (⟨3, ![1, a, 3]⟩ : Shape).ShapeCasts ⟨2, ![a, 3]⟩)
    (h : (⟨2, ![a, 3]⟩ : Shape).Reduces [1] ⟨1, ![a]⟩) (hφ : FKind.Formats .f32)
    (hacc : (0x00000000#32 : BitVec 32) = FKind.add.neutral .f32 hφ)
    (hc' : (⟨1, ![a]⟩ : Shape).ShapeCasts ⟨2, ![a, 1]⟩) (r : Fin a) (u : Fin 1) :
    shapeCast ⟨2, ![a, 1]⟩ (multiReduction .add [1] ⟨1, ![a]⟩
        (mulf (shapeCast ⟨2, ![a, 3]⟩ x hc) (shapeCast ⟨2, ![a, 3]⟩ x hc)) 0x00000000#32 h hφ hacc) hc' (ix2 r u)
      = ∑ d : Fin 3, x (ix3 0 r d) * x (ix3 0 r d) :=
  (shapeCast_a_a1_apply _ hc' r u).trans ((rowSum3_apply _ h hφ hacc r).trans
    (Finset.sum_congr rfl fun d _ => congrArg₂ (· * ·) (shapeCast_1ab_ab_apply x hc r d) (shapeCast_1ab_ab_apply x hc r d)))

theorem entry_congr {a a' b b' c c' : EReal} (ha : a = a') (hb : b = b') (hc : c = c') : entry a b c = entry a' b' c' := by
  subst ha hb hc; rfl

end Cert.Chamfer

namespace Cert.KernelIdeal.Pay

open Idealize.ShloMosaic Idealize.ShloMosaic.ValueIdx
open Cert.KernelIdeal Cert.KernelIdeal.Gen Cert.Chamfer
open Cert.Lib.Column Cert.Lib.Repeat Cert.PlainProduct

/-- The distance between row `r` of the first block and row `k` of the second. -/
def blkEntry (x0 : FVec Ideal S1x256x3 .f32) (x1 : FVec Ideal S1x2048x3 .f32) (r : Fin 256) (k : Fin 2048) : EReal :=
  entry (∑ d : Fin 3, x0 (ix3 0 r d) * x0 (ix3 0 r d)) (∑ d : Fin 3, x1 (ix3 0 k d) * x1 (ix3 0 k d))
    (∑ d : Fin 3, x0 (ix3 0 r d) * x1 (ix3 0 k d))

/-- The matrix of distances at `(r, k)`. -/
theorem pay2_apply (x0 : FVec Ideal S1x256x3 .f32) (x1 : FVec Ideal S1x2048x3 .f32) (r : Fin 256) (k : Fin 2048) :
    k0_pay2 (F := Ideal) x0 x1 (ix2 r k) = blkEntry x0 x1 r k := by
  unfold k0_pay2 blkEntry
  refine entry_congr ?_ ?_ ?_
  · exact (colRepeat_apply _ _ r k).trans (sqCol_apply x0 _ _ _ _ _ r 0)
  · exact (rowRepeat_apply _ _ r k).trans ((transpose_ix2_apply _ _ 0 k).trans (sqCol_apply x1 _ _ _ _ _ k 0))
  · exact (matmul_plain_apply _ rfl _ _ _ r k).trans (Finset.sum_congr rfl fun d _ => congrArg₂ (· * ·)
      (shapeCast_1ab_ab_apply x0 _ r d) ((transpose_ix2_apply _ _ d k).trans (shapeCast_1ab_ab_apply x1 _ k d)))

/-- The row minima, laid out as one row: entry `r` is the minimum of row `r` of the distances. -/
theorem pay3_apply (x0 : FVec Ideal S1x256x3 .f32) (x1 : FVec Ideal S1x2048x3 .f32) (u w : Fin 1) (r : Fin 256) :
    k0_pay3 (F := Ideal) x0 x1 (ix3 u w r) = Finset.univ.fold min start fun k : Fin 2048 => blkEntry x0 x1 r k := by
  unfold k0_pay3
  refine (shapeCast_ab_1ab_apply _ _ u w r).trans ((transpose_ix2_apply _ _ w r).trans
    ((shapeCast_a_a1_apply _ _ r w).trans ((rowMin_apply _ _ _ _ r).trans ?_)))
  exact congrArg (Finset.univ.fold min start) (funext fun k => pay2_apply x0 x1 r k)

/-- The column minima of the tile: entry `k` is the minimum of column `k` of the distances. -/
theorem pay4_apply (x0 : FVec Ideal S1x256x3 .f32) (x1 : FVec Ideal S1x2048x3 .f32) (w : Fin 1) (k : Fin 2048) :
    k0_pay4 (F := Ideal) x0 x1 (ix2 w k) = Finset.univ.fold min start fun r : Fin 256 => blkEntry x0 x1 r k := by
  unfold k0_pay4
  refine (shapeCast_a_1a_apply _ _ w k).trans ((colMin_apply _ _ _ _ k).trans ?_)
  exact congrArg (Finset.univ.fold min start) (funext fun r => pay2_apply x0 x1 r k)

/-- Folding a row of column minima into the running block: the entrywise minimum. -/
theorem pay1_apply (v31 : FVec Ideal S1x2048 .f32) (v35 : FVec Ideal S1x1x2048 .f32) (u w : Fin 1) (k : Fin 2048) :
    k0_pay1 (F := Ideal) v31 v35 (ix3 u w k) = min (v35 (ix3 0 w k)) (v31 (ix2 w k)) := by
  unfold k0_pay1
  refine (shapeCast_ab_1ab_apply _ _ u w k).trans ?_
  exact congrArg (min · (v31 (ix2 w k))) (shapeCast_1ab_ab_apply v35 _ w k)

/-- The reset block is `+∞` everywhere. -/
theorem pay5_apply (u w : Fin 1) (k : Fin 2048) : k0_pay5 (F := Ideal) (ix3 u w k) = start := by
  unfold k0_pay5
  exact shapeCast_ab_1ab_apply _ _ u w k

end Cert.KernelIdeal.Pay

end
-- ==== Proof.KernelBlocks.lean ====
/-
  The tiles the body sees, as parts of the two clouds.

  Grid point `t` (256 of them) works on batch `t / 8` and tile `t % 8`: it reads rows `256 (t % 8) … + 255` of the
  first cloud's batch and the whole batch of the second cloud. So the distance the body forms between row `r` of its
  first block and row `k` of its second is the distance between points `256 (t % 8) + r` and `k` of batch `t / 8`,
  and the tile's column minimum is the minimum over one tile of rows. What the two output blocks hold after a point
  follows by cases: the row-minimum block holds this tile's row minima; the column-minimum block holds this tile's
  column minima folded into `+∞` at a batch's first tile and into the previous tile's block otherwise.
-/
import proofs.«169854_j16844861735655_2_alg».proof.Proof.KernelPieces
import proofs.«169854_j16844861735655_2_alg».proof.Proof.KernelPay

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Pieces Cert.KernelIdeal.Pay Cert.Chamfer

variable (m : (ℓ : Loc nD τ sig) → Buf (Elt Ideal) ℓ)

/-- The first cloud as the region finds it: the argument's first slice with the leading coordinate dropped. -/
abbrev P (c : Dev nD) : Pts.Idx → EReal := V m c main_v2
/-- The second cloud as the region finds it. -/
abbrev Q (c : Dev nD) : Pts.Idx → EReal := V m c main_v3

/-- The four index maps over the grid: batch `t / 8` everywhere; the tile `t % 8` on the first cloud's row axis and on
    the row-minimum output's lane axis; zero elsewhere. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = 0 :=
  (by decide +kernel : ∀ t : Fin grid0.N, _)

theorem lt_N (t : Fin cfg0.N) : t.val < 256 := lt_of_lt_of_eq t.isLt (show cfg0.N = 256 from N_0)

/-- Row `r`, coordinate `d` of the first block at point `t` is point `256 (t % 8) + r` of batch `t / 8`. -/
theorem iblk0_apply (c : Dev nD) (t : Fin cfg0.N) (r : Fin 256) (d : Fin 3) (b : Fin 32) (n : Fin 2048)
    (hb : b.val = t.val / 8) (hn : n.val = t.val % 8 * 256 + r.val) :
    (iblk m c 0 t : FVec Ideal S1x256x3 .f32) (ix3 0 r d) = P m c (ix3 b n d) := by
  obtain ⟨e0, e1, e2, -⟩ := idx_facts t
  unfold iblk
  rw [View.read_apply]
  show V m c main_v2 _ = V m c main_v2 _
  congr 1
  funext a
  apply Fin.ext
  match a with
  | ⟨0, _⟩ => show win0_0.index t (0 : Fin 3) * 1 + 1 * 0 = b.val; omega
  | ⟨1, _⟩ => show win0_0.index t (1 : Fin 3) * 256 + 1 * r.val = n.val; omega
  | ⟨2, _⟩ => show win0_0.index t (2 : Fin 3) * 3 + 1 * d.val = d.val; omega

/-- Row `k`, coordinate `d` of the second block at point `t` is point `k` of batch `t / 8`. -/
theorem iblk1_apply (c : Dev nD) (t : Fin cfg0.N) (k : Fin 2048) (d : Fin 3) (b : Fin 32) (hb : b.val = t.val / 8) :
    (iblk m c 1 t : FVec Ideal S1x2048x3 .f32) (ix3 0 k d) = Q m c (ix3 b k d) := by
  obtain ⟨-, -, -, e0, e1, e2, -⟩ := idx_facts t
  unfold iblk
  rw [View.read_apply]
  show V m c main_v3 _ = V m c main_v3 _
  congr 1
  funext a
  apply Fin.ext
  match a with
  | ⟨0, _⟩ => show win0_1.index t (0 : Fin 3) * 1 + 1 * 0 = b.val; omega
  | ⟨1, _⟩ => show win0_1.index t (1 : Fin 3) * 2048 + 1 * k.val = k.val; omega
  | ⟨2, _⟩ => show win0_1.index t (2 : Fin 3) * 3 + 1 * d.val = d.val; omega

/-- The body's distance between rows `r` and `k` of its blocks is the clouds' distance between points
    `256 (t % 8) + r` and `k` of batch `t / 8`. -/
theorem blkEntry_iblk (c : Dev nD) (t : Fin cfg0.N) (r : Fin 256) (k : Fin 2048) (b : Fin 32) (n : Fin 2048)
    (hb : b.val = t.val / 8) (hn : n.val = t.val % 8 * 256 + r.val) :
    blkEntry (iblk m c 0 t) (iblk m c 1 t) r k = pdist (P m c) (Q m c) b n k := by
  unfold blkEntry pdist sqLen inner3
  exact entry_congr
    (Finset.sum_congr rfl fun d _ => congrArg₂ (· * ·) (iblk0_apply m c t r d b n hb hn) (iblk0_apply m c t r d b n hb hn))
    (Finset.sum_congr rfl fun d _ => congrArg₂ (· * ·) (iblk1_apply m c t k d b hb) (iblk1_apply m c t k d b hb))
    (Finset.sum_congr rfl fun d _ => congrArg₂ (· * ·) (iblk0_apply m c t r d b n hb hn) (iblk1_apply m c t k d b hb))

/-- The tile's column minimum at `k` is the minimum of column `k` of the distances over tile `t % 8` of batch `t / 8`. -/
theorem tile_eq (c : Dev nD) (t : Fin cfg0.N) (k : Fin 2048) (b : Fin 32) (hb : b.val = t.val / 8) :
    (Finset.univ.fold min start fun r : Fin 256 => blkEntry (iblk m c 0 t) (iblk m c 1 t) r k)
      = tileMin start (fun n => pdist (P m c) (Q m c) b n k) (t.val % 8) (Nat.mod_lt _ (by decide)) := by
  unfold tileMin
  exact congrArg (Finset.univ.fold min start) (funext fun r => blkEntry_iblk m c t r k b _ hb rfl)

/-- After any point the row-minimum block holds the tile's row minima. -/
theorem outs2_eq (c : Dev nD) (t : Fin cfg0.N) :
    (outsAt0 m c t.val t.isLt).1 = k0_pay3 (iblk m c 0 t) (iblk m c 1 t) := by
  by_cases h0 : t.val % 8 = 0
  · rw [outsAt0_A m c t h0]
    dsimp only
    exact out_A_2 (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)
  · rw [outsAt0_B m c t h0]
    dsimp only
    exact out_B_2 (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).2

/-- After a batch's first tile the column-minimum block holds the tile's column minima folded into `+∞`. -/
theorem outs3_A (c : Dev nD) (t : Fin cfg0.N) (h0 : t.val % 8 = 0) (u w : Fin 1) (k : Fin 2048) :
    (outsAt0 m c t.val t.isLt).2 (ix3 u w k)
      = min start (Finset.univ.fold min start fun r : Fin 256 => blkEntry (iblk m c 0 t) (iblk m c 1 t) r k) := by
  have e : (outsAt0 m c t.val t.isLt).2 = k0_pay1 (k0_pay4 (iblk m c 0 t) (iblk m c 1 t)) (k0_pay5 (F := Ideal)) := by
    rw [outsAt0_A m c t h0]
    dsimp only
    exact out_A_3 (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)
  refine (congrFun e (ix3 u w k)).trans ?_
  refine (pay1_apply (k0_pay4 (iblk m c 0 t) (iblk m c 1 t)) k0_pay5 u w k).trans ?_
  exact congrArg₂ min (pay5_apply 0 w k) (pay4_apply (iblk m c 0 t) (iblk m c 1 t) w k)

/-- After a later tile it holds the tile's column minima folded into what the tile before left. -/
theorem outs3_B (c : Dev nD) (t : Fin cfg0.N) (h0 : ¬t.val % 8 = 0) (u w : Fin 1) (k : Fin 2048) :
    (outsAt0 m c t.val t.isLt).2 (ix3 u w k)
      = min ((outsAt0 m c (t.val - 1) (Nat.lt_of_le_of_lt (Nat.sub_le _ _) t.isLt)).2 (ix3 0 w k))
          (Finset.univ.fold min start fun r : Fin 256 => blkEntry (iblk m c 0 t) (iblk m c 1 t) r k) := by
  have e : (outsAt0 m c t.val t.isLt).2 = k0_pay1 (k0_pay4 (iblk m c 0 t) (iblk m c 1 t))
      (outsAt0 m c (t.val - 1) (Nat.lt_of_le_of_lt (Nat.sub_le _ _) t.isLt)).2 := by
    rw [outsAt0_B m c t h0]
    dsimp only
    exact out_B_3 (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).2
  refine (congrFun e (ix3 u w k)).trans ?_
  refine (pay1_apply (k0_pay4 (iblk m c 0 t) (iblk m c 1 t)) _ u w k).trans ?_
  exact congrArg (min _) (pay4_apply (iblk m c 0 t) (iblk m c 1 t) w k)

end Cert.KernelIdeal.Blocks

end
-- ==== Proof.KernelArrays.lean ====
/-
  What the two output arrays hold after the whole grid.

  The row-minimum array: point `t` writes back, at lanes `256 (t % 8) …` of batch `t / 8`, its tile's row minima,
  which are the nearest-neighbour distances of those 256 points; the 256 blocks tile the array.

  The column-minimum array: within a batch the block stays in place over the eight tiles and is written back after
  the last. By induction on the point, after tile `j` of a batch the block's entry `k` has exactly the lower bounds
  of `+∞` and of the distances from the first `256 (j + 1)` points to point `k`; after the eighth tile that makes it
  the minimum over all 2048 points. The 32 written-back blocks tile the array.
-/
import proofs.«169854_j16844861735655_2_alg».proof.Proof.KernelBlocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Pay Cert.KernelIdeal.Blocks Cert.Chamfer

variable (m : (ℓ : Loc nD τ sig) → Buf (Elt Ideal) ℓ)

/-! ## The running column minimum -/

/-- After point `n` (tile `n % 8` of batch `n / 8`) entry `k` of the column-minimum block has the lower bounds of
    `+∞` and of the distances from the first `n % 8 + 1` tiles of points to point `k`. -/
theorem acc_below (c : Dev nD) (k : Fin 2048) : ∀ (n : ℕ) (h : n < cfg0.N) (b : Fin 32) (hb : b.val = n / 8) (x : EReal),
    x ≤ (outsAt0 m c n h).2 (ix3 0 0 k) ↔ Below start (fun n' => pdist (P m c) (Q m c) b n' k) (n % 8 + 1) x := by
  intro n
  induction n with
  | zero =>
    intro h b hb x
    have e := outs3_A m c ⟨0, h⟩ rfl 0 0 k
    have e' := tile_eq m c ⟨0, h⟩ k b hb
    rw [e'] at e
    rw [show (outsAt0 m c 0 h).2 (ix3 0 0 k) = _ from e]
    exact below_first_of start _ _ _ rfl x
  | succ n ih =>
    intro h b hb x
    by_cases h0 : (n + 1) % 8 = 0
    · have e := outs3_A m c ⟨n + 1, h⟩ h0 0 0 k
      have e' := tile_eq m c ⟨n + 1, h⟩ k b hb
      rw [e'] at e
      rw [show (outsAt0 m c (n + 1) h).2 (ix3 0 0 k) = _ from e]
      exact below_first_of start _ _ _ h0 x
    · have e := outs3_B m c ⟨n + 1, h⟩ h0 0 0 k
      have e' := tile_eq m c ⟨n + 1, h⟩ k b hb
      rw [e'] at e
      rw [show (outsAt0 m c (n + 1) h).2 (ix3 0 0 k) = _ from e]
      have hb' : b.val = n / 8 := by omega
      have hJ : n % 8 + 1 = (n + 1) % 8 := by omega
      have ih' : ∀ y, y ≤ (outsAt0 m c n (Nat.lt_of_succ_lt h)).2 (ix3 0 0 k)
          ↔ Below start (fun n' => pdist (P m c) (Q m c) b n' k) ((n + 1) % 8) y := fun y => by
        rw [← hJ]; exact ih (Nat.lt_of_succ_lt h) b hb' y
      exact below_next start _ ((n + 1) % 8) _ _ ih' x

/-! ## The two arrays -/

/-- The row-minimum array: entry `(b, 0, n)` is point `n`'s nearest-neighbour distance in batch `b`. -/
def G2 (c : Dev nD) : S32x1x2048.Idx → EReal := fun i =>
  rowMin (P m c) (Q m c) ⟨(i 0).val, (i 0).isLt⟩ ⟨(i 2).val, (i 2).isLt⟩

/-- The column-minimum array: entry `(b, 0, k)` is point `k` of the second cloud's nearest-neighbour distance. -/
def G3 (c : Dev nD) : S32x1x2048.Idx → EReal := fun i =>
  colMin (P m c) (Q m c) ⟨(i 0).val, (i 0).isLt⟩ ⟨(i 2).val, (i 2).isLt⟩

theorem G2_at (c : Dev nD) (i : S32x1x2048.Idx) (b : Fin 32) (n : Fin 2048) (hb : (i 0).val = b.val) (hn : (i 2).val = n.val) :
    G2 m c i = rowMin (P m c) (Q m c) b n := by
  unfold G2; congr 1 <;> exact Fin.ext ‹_›

theorem G3_at (c : Dev nD) (i : S32x1x2048.Idx) (b : Fin 32) (k : Fin 2048) (hb : (i 0).val = b.val) (hk : (i 2).val = k.val) :
    G3 m c i = colMin (P m c) (Q m c) b k := by
  unfold G3; congr 1 <;> exact Fin.ext ‹_›

/-- What point `t` writes back to the row-minimum array is its block of `G2`. -/
theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2, outs2_eq m c t]
  funext j
  obtain ⟨u, w, r, rfl⟩ : ∃ (u w : Fin 1) (r : Fin 256), j = (ix3 u w r : S1x1x256.Idx) :=
    ⟨j 0, j 1, j 2, eq_ix3 (n0 := 1) (n1 := 1) (n2 := 256) j⟩
  show k0_pay3 (iblk m c 0 t) (iblk m c 1 t) (ix3 u w r) = G2 m c (((cfg0.win 2).blk t).view.emb (ix3 u w r))
  refine (pay3_apply (iblk m c 0 t) (iblk m c 1 t) u w r).trans ?_
  have hN := lt_N t
  have hu := u.isLt
  obtain ⟨-, -, -, -, -, -, e0, e1, e2, -⟩ := idx_facts t
  have hb : (((cfg0.win 2).blk t).view.emb (ix3 u w r) (0 : Fin 3)).val = t.val / 8 := by
    show win0_2.index t (0 : Fin 3) * 1 + 1 * u.val = t.val / 8; omega
  have hn : (((cfg0.win 2).blk t).view.emb (ix3 u w r) (2 : Fin 3)).val = t.val % 8 * 256 + r.val := by
    show win0_2.index t (2 : Fin 3) * 256 + 1 * r.val = t.val % 8 * 256 + r.val; omega
  rw [G2_at m c _ ⟨t.val / 8, by omega⟩ ⟨t.val % 8 * 256 + r.val, by have := r.isLt; omega⟩ hb hn]
  unfold rowMin
  exact congrArg (Finset.univ.fold min start) (funext fun k => blkEntry_iblk m c t r k _ _ rfl rfl)

/-- What the last tile of a batch writes back to the column-minimum array is its block of `G3`. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  show (cfg0.win 3).cut (grid0.coords t) ((dats m 0 c).after 3 t) = _
  rw [after0_3]
  funext j
  obtain ⟨u, w, k, rfl⟩ : ∃ (u w : Fin 1) (k : Fin 2048), j = (ix3 u w k : S1x1x2048.Idx) :=
    ⟨j 0, j 1, j 2, eq_ix3 (n0 := 1) (n1 := 1) (n2 := 2048) j⟩
  obtain rfl : u = 0 := Subsingleton.elim _ _
  obtain rfl : w = 0 := Subsingleton.elim _ _
  show (outsAt0 m c t.val t.isLt).2 (ix3 0 0 k) = G3 m c (((cfg0.win 3).blk t).view.emb (ix3 0 0 k))
  have hN := lt_N t
  obtain ⟨-, -, -, -, -, -, -, -, -, e0, e1, e2⟩ := idx_facts t
  have hb : (((cfg0.win 3).blk t).view.emb (ix3 0 0 k) (0 : Fin 3)).val = t.val / 8 := by
    show win0_3.index t (0 : Fin 3) * 1 + 1 * 0 = t.val / 8; omega
  have hk : (((cfg0.win 3).blk t).view.emb (ix3 0 0 k) (2 : Fin 3)).val = k.val := by
    show win0_3.index t (2 : Fin 3) * 2048 + 1 * k.val = k.val; omega
  rw [G3_at m c _ ⟨t.val / 8, by omega⟩ k hb hk]
  unfold colMin
  refine eq_foldMin_of_below start _ _ fun x => ?_
  have := acc_below m c k t.val t.isLt ⟨t.val / 8, by omega⟩ rfl x
  rw [h7] at this
  exact this

/-- An index of the row-minimum array lies in point `t`'s block iff each coordinate lies in the block's range. -/
theorem mem_blk2 (t : Fin cfg0.N) (i : S32x1x2048.Idx) :
    i ∈ ((cfg0.win 2).blk t).view.set ↔ ∀ a : Fin 3, win0_2.index t a * S1x1x256.size a ≤ (i a).val
      ∧ (i a).val < win0_2.index t a * S1x1x256.size a + S1x1x256.size a := by
  show i ∈ ((View.whole main_v4_0).slice (win0_2.rect t)).set ↔ _
  rw [View.set_slice_whole, Rect.mem_set_unit]
  exact Iff.rfl

theorem mem_blk3 (t : Fin cfg0.N) (i : S32x1x2048.Idx) :
    i ∈ ((cfg0.win 3).blk t).view.set ↔ ∀ a : Fin 3, win0_3.index t a * S1x1x2048.size a ≤ (i a).val
      ∧ (i a).val < win0_3.index t a * S1x1x2048.size a + S1x1x2048.size a := by
  show i ∈ ((View.whole main_v4_1).slice (win0_3.rect t)).set ↔ _
  rw [View.set_slice_whole, Rect.mem_set_unit]
  exact Iff.rfl

/-- Lane `n` of batch `b` is written back by point `8 b + n / 256`. -/
theorem cover2 (i : S32x1x2048.Idx) : ∃ t : Fin cfg0.N, (cfg0.win 2).flush t = true ∧ i ∈ ((cfg0.win 2).blk t).view.set := by
  have h0 : (i 0).val < 32 := (i 0).isLt
  have h1 : (i 1).val < 1 := (i 1).isLt
  have h2 : (i 2).val < 2048 := (i 2).isLt
  have hlt : (i 0).val * 8 + (i 2).val / 256 < cfg0.N := by rw [show cfg0.N = 256 from N_0]; omega
  refine ⟨⟨(i 0).val * 8 + (i 2).val / 256, hlt⟩, flush0_2 _, ?_⟩
  rw [mem_blk2]
  obtain ⟨-, -, -, -, -, -, e0, e1, e2, -⟩ := idx_facts ⟨(i 0).val * 8 + (i 2).val / 256, hlt⟩
  simp only at e0 e1 e2
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 256 ≤ (i 2).val ∧ (i 2).val < win0_2.index _ (2 : Fin 3) * 256 + 256; omega

/-- Batch `b`'s block is written back by its last tile, point `8 b + 7`. -/
theorem cover3 (i : S32x1x2048.Idx) : ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 2048 := (i 2).isLt
  have hlt : (i 0).val * 8 + 7 < cfg0.N := by rw [show cfg0.N = 256 from N_0]; omega
  refine ⟨⟨(i 0).val * 8 + 7, hlt⟩, (flush0_3 _).mpr (by simp only; omega), ?_⟩
  rw [mem_blk3]
  obtain ⟨-, -, -, -, -, -, -, -, -, e0, e1, e2⟩ := idx_facts ⟨(i 0).val * 8 + 7, hlt⟩
  simp only at e0 e1 e2
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 2048 ≤ (i 2).val ∧ (i 2).val < win0_3.index _ (2 : Fin 3) * 2048 + 2048; omega

/-- The row-minimum array after the run. -/
theorem final2 (c : Dev nD) : (dats m 0 c).arrAt 2 cfg0.N = G2 m c :=
  (dats m 0 c).arrAt_eq_of_cover 2 (G2 m c) (fun t _ => flushed2_eq m c t) cover2

/-- The column-minimum array after the run. -/
theorem final3 (c : Dev nD) : (dats m 0 c).arrAt 3 cfg0.N = G3 m c :=
  (dats m 0 c).arrAt_eq_of_cover 3 (G3 m c) (flushed3_eq m c) cover3

end Cert.KernelIdeal.Arrays

end
-- ==== Proof.KernelLoss.lean ====
/-
  The kernel program's result: the loss of the two nearest-neighbour arrays.

  After the region the host drops the unit axis of both arrays, adds them, halves the sum and adds up all
  32 × 2048 entries. Those lines read the two arrays the region wrote, which are the nearest-neighbour distances in
  the two directions.
-/
import proofs.«169854_j16844861735655_2_alg».proof.Proof.KernelArrays
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen Cert.KernelIdeal.Blocks Cert.KernelIdeal.Arrays Cert.Chamfer
open Idealize.ShloMosaic.StableHlo

/-- Half the sum of the two arrays, added up over every batch and point. -/
def lossOf (A B : FVec Ideal S32x1x2048 .f32) : FVec Ideal S_ .f32 :=
  Host.reduceAdd (F := Ideal)
    (mulf (F := Ideal) (addf (F := Ideal) (shapeCast S32x2048 A shapeCasts_S32x1x2048_S32x2048)
        (shapeCast S32x2048 B shapeCasts_S32x1x2048_S32x2048))
      (broadcastInDim S32x2048 ![] bcast_S_S32x2048 (constant (F := Ideal) S_ .f32 0x3F000000#32)))
    (constant (F := Ideal) S_ .f32 0x00000000#32) reducesTo_S32x2048_S_d0_1 h_S_

/-- The lines after the region, from any contents: the result is the loss of the two arrays' contents. -/
theorem tail_eq (W : Valuation τ sig (Elt Ideal)) :
    StableHlo.after (hostOps1 (F := Ideal)) W (Proc.devRef .tc main_v10)
      = lossOf (W (Proc.devRef .tc main_v4_0)) (W (Proc.devRef .tc main_v4_1)) := by
  after_results
  rfl

variable (m : (ℓ : Loc nD τ sig) → Buf (Elt Ideal) ℓ) (ρ : Dev nD → PrngReg)

/-- The program's result after the run. -/
theorem result_eq (c : Dev nD) :
    Pipeline.afterTail₀ cfgs (dats m) 0 (V0 m) [hostOps1] c main_v10 = lossOf (G2 m c) (G3 m c) := by
  unfold Pipeline.afterTail₀
  show StableHlo.after hostOps1 _ (Proc.devRef .tc main_v10) = _
  rw [tail_eq]
  have e2 := (Pipeline.withArrays_arr spec0 launch0.win.arr_inj c (V0 m c) (fun w => (dats m 0 c).arrAt w cfg0.N) 2).trans
    (final2 m c)
  have e3 := (Pipeline.withArrays_arr spec0 launch0.win.arr_inj c (V0 m c) (fun w => (dats m 0 c).arrAt w cfg0.N) 3).trans
    (final3 m c)
  exact congrArg₂ lossOf e2 e3

/-- Every weakly fair execution ends with the result at the loss of the nearest-neighbour arrays and the arguments
    unchanged. -/
theorem run : θ_run defs (onTc (τ := τ) (main (F := Ideal))) ⟨m, fun _ => 0, ρ⟩ fun r => ∀ c : Dev nD,
      r.2.mem ((c.tc : Thread nD τ).loc main_v10) = lossOf (G2 m c) (G3 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

/-- The clouds the region finds are the host's slices of the arguments. -/
theorem P_eq (c : Dev nD) : P m c = extractStridedSlice S32x2048x3 ![0, 0, 1]
    (shapeCast S32x2048x4 (extractStridedSlice S1x32x2048x4 ![0, 0, 0, 0] (m ((c.tc : Thread nD τ).loc main_arg0))
      slices_S2x32x2048x4_S1x32x2048x4_0_0_0_0) shapeCasts_S1x32x2048x4_S32x2048x4) slices_S32x2048x4_S32x2048x3_0_0_1 := by
  show StableHlo.after (List.flatten [hostOps0]) (fun b => m (c, b)) (Proc.devRef .tc main_v2) = _
  simp only [hostOps0, List.flatten_cons, List.flatten_nil, List.append_nil]
  after_results
  rfl

theorem Q_eq (c : Dev nD) : Q m c = extractStridedSlice S32x2048x3 ![0, 0, 1]
    (m ((c.tc : Thread nD τ).loc main_arg1)) slices_S32x2048x4_S32x2048x3_0_0_1 := by
  show StableHlo.after (List.flatten [hostOps0]) (fun b => m (c, b)) (Proc.devRef .tc main_v3) = _
  simp only [hostOps0, List.flatten_cons, List.flatten_nil, List.append_nil]
  after_results

end Cert.KernelIdeal.Loss

end
-- ==== Proof.RefValue.lean ====
/-
  The reference read entry by entry: its distance array is the shared distance of the two sliced clouds, and its two
  minimum reductions are the nearest-neighbour minima in each direction.

  The reference forms the whole 32 × 2048 × 2048 array of distances at once: squared lengths by a sum over the three
  coordinates, inner products by a batched product contracted over the coordinates, then the same entrywise formula.
  A reduction by `min` along the last axis gives each first-cloud point's nearest neighbour, along the middle axis
  each second-cloud point's.
-/
import proofs.«169854_j16844861735655_2_alg».proof.Proof.Gen.ReferenceIdeal.Read
import proofs.«169854_j16844861735655_2_alg».proof.Proof.Spec
import Idealize.ShloMosaic.PureOps.Reduce

noncomputable section

namespace Cert.ReferenceIdeal.RefValue

open Idealize.ShloMosaic Idealize.ShloMosaic.ValueIdx
open Cert.ReferenceIdeal Cert.ReferenceIdeal.Gen Cert.ReferenceIdeal.Read Cert.Chamfer

variable (x0 : (⟨S2x32x2048x4, .f32⟩ : BufTy).Contents (Elt Ideal)) (x1 : (⟨S32x2048x4, .f32⟩ : BufTy).Contents (Elt Ideal))

/-- The first cloud: the first slice of the first argument without its first coordinate. -/
abbrev P' : Pts.Idx → EReal := val_main_v2 (F := Ideal) x0
/-- The second cloud: the second argument without its first coordinate. -/
abbrev Q' : Pts.Idx → EReal := val_main_v3 (F := Ideal) x1

theorem i5 (b : Fin 32) (n : Fin 2048) (d : Fin 3) : idx_main_v5 (ix2 b n) d = ix3 b n d :=
  funext fun a => Fin.ext (by match a with | ⟨0, _⟩ => rfl | ⟨1, _⟩ => rfl | ⟨2, _⟩ => rfl)
theorem i7 (b : Fin 32) (k : Fin 2048) (d : Fin 3) : idx_main_v7 (ix2 b k) d = ix3 b k d :=
  funext fun a => Fin.ext (by match a with | ⟨0, _⟩ => rfl | ⟨1, _⟩ => rfl | ⟨2, _⟩ => rfl)
theorem i8l (b : Fin 32) (n k : Fin 2048) (d : Fin 3) : lidx_main_v8 (ix3 b n k) d = ix3 b n d :=
  funext fun a => Fin.ext (by match a with | ⟨0, _⟩ => rfl | ⟨1, _⟩ => rfl | ⟨2, _⟩ => rfl)
theorem i8r (b : Fin 32) (n k : Fin 2048) (d : Fin 3) : ridx_main_v8 (ix3 b n k) d = ix3 b k d :=
  funext fun a => Fin.ext (by match a with | ⟨0, _⟩ => rfl | ⟨1, _⟩ => rfl | ⟨2, _⟩ => rfl)
theorem i9 (b : Fin 32) (n k : Fin 2048) : idx_main_v9 (idx_main_v11 (ix3 b n k)) = ix2 b n :=
  funext fun a => Fin.ext (by match a with | ⟨0, _⟩ => rfl | ⟨1, _⟩ => rfl)
theorem i10 (b : Fin 32) (n k : Fin 2048) : idx_main_v10 (idx_main_v12 (ix3 b n k)) = ix2 b k :=
  funext fun a => Fin.ext (by match a with | ⟨0, _⟩ => rfl | ⟨1, _⟩ => rfl)

/-- The reference's distance array at `(b, n, k)`. -/
theorem v21_apply (b : Fin 32) (n k : Fin 2048) :
    val_main_v21 (F := Ideal) x0 x1 (ix3 b n k) = pdist (P' x0) (Q' x1) b n k := by
  rw [val_main_v21_apply, val_main_v20_apply, val_main_v18_apply, val_main_v16_apply, val_main_v13_apply,
    val_main_v15_apply, val_main_v11_apply, val_main_v9_apply, val_main_v12_apply, val_main_v10_apply,
    val_main_v14_apply, val_main_v17_apply, val_main_v19_apply, val_main_v8_apply, i9, i10, val_main_v5_apply,
    val_main_v7_apply]
  simp only [i5, i7, i8l, i8r, val_main_v4_apply, val_main_v6_apply, val_main_cst_apply, val_main_cst_0_apply,
    val_main_cst_1_apply, val_main_cst_2_apply, val_main_cst_3_apply]
  unfold pdist entry sqLen inner3
  simp only [Ideal.hostUnary_sqrt_def, Ideal.addf_def, Ideal.maximumf_def, Ideal.subf_def, Ideal.mulf_def,
    Ideal.ofBits_def, Ideal.ofBits_zero_f32, zero_add]

theorem red_last : S32x2048x2048.Reduces [2] S32x2048 := by decide
theorem red_mid : S32x2048x2048.Reduces [1] S32x2048 := by decide

/-- The reduction along the last axis: each first-cloud point's nearest-neighbour distance. -/
theorem v22_apply (b : Fin 32) (n : Fin 2048) :
    val_main_v22 (F := Ideal) x0 x1 (ix2 b n) = rowMin (P' x0) (Q' x1) b n := by
  unfold val_main_v22 rowMin
  refine (Host.reduce_eq_fold_single (FloatOps.minimumf (F := Ideal) (φ := .f32)) (val_main_v21 (F := Ideal) x0 x1) (val_main_cst_4 (F := Ideal))
    reducesTo_S32x2048x2048_S32x2048_d2 red_last h_S_ (ix2 b n)).trans ?_
  refine congrArg (Finset.univ.fold min start) (funext fun k => ?_)
  refine (congrArg (val_main_v21 (F := Ideal) x0 x1) (funext fun a => ?_)).trans (v21_apply x0 x1 b n k)
  match a with
  | ⟨0, _⟩ => rfl
  | ⟨1, _⟩ => rfl
  | ⟨2, _⟩ => rfl

/-- The reduction along the middle axis: each second-cloud point's nearest-neighbour distance. -/
theorem v23_apply (b : Fin 32) (k : Fin 2048) :
    val_main_v23 (F := Ideal) x0 x1 (ix2 b k) = colMin (P' x0) (Q' x1) b k := by
  unfold val_main_v23 colMin
  refine (Host.reduce_eq_fold_single (FloatOps.minimumf (F := Ideal) (φ := .f32)) (val_main_v21 (F := Ideal) x0 x1) (val_main_cst_5 (F := Ideal))
    reducesTo_S32x2048x2048_S32x2048_d1 red_mid h_S_ (ix2 b k)).trans ?_
  refine congrArg (Finset.univ.fold min start) (funext fun n => ?_)
  refine (congrArg (val_main_v21 (F := Ideal) x0 x1) (funext fun a => ?_)).trans (v21_apply x0 x1 b n k)
  match a with
  | ⟨0, _⟩ => rfl
  | ⟨1, _⟩ => rfl
  | ⟨2, _⟩ => rfl

end Cert.ReferenceIdeal.RefValue

end
-- ==== Proof.LibMiddleUnit.lean ====
/- A unit middle axis dropped: an [a, 1, b] array cast to [a, b], read at an index. -/
import Idealize.ShloMosaic.Lib.ValueLayout

namespace Cert.Lib.MiddleUnit

open Idealize.ShloMosaic Idealize.ShloMosaic.ValueIdx

variable {α : Type}

/-- An `[a, 1, b]` array cast to `[a, b]` reads, at `(i, j)`, the operand at `(i, 0, j)`: both sit at row-major
    position `i · b + j`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.MiddleUnit
-- ==== Proof.Bridge.lean ====
/-
  The two programs compute one number.

  The reference's result is half the sum of its two minimum reductions, added up; the kernel program's is the same
  expression of the two arrays its region wrote, with their unit axis dropped. Entry by entry those arrays are the
  reference's reductions: both are the nearest-neighbour minima of the same two clouds, the argument arrays sliced
  the same way by both programs.
-/
import proofs.«169854_j16844861735655_2_alg».proof.Proof.KernelLoss
import proofs.«169854_j16844861735655_2_alg».proof.Proof.RefValue
import proofs.«169854_j16844861735655_2_alg».proof.Proof.LibMiddleUnit

noncomputable section

open Idealize.ShloMosaic Idealize.ShloMosaic.TcCoe Idealize.SL.Sem Idealize.ShloMosaic.ValueIdx

namespace Cert.Proof.Bridge

open Cert.Chamfer Cert.Lib.MiddleUnit
open Cert.KernelIdeal.Blocks Cert.KernelIdeal.Arrays Cert.KernelIdeal.Loss
open Cert.ReferenceIdeal.RefValue

variable (m : (ℓ : Loc Cert.KernelIdeal.nD Cert.KernelIdeal.τ Cert.KernelIdeal.sig) → Buf (Elt Ideal) ℓ)
  (c : Dev Cert.KernelIdeal.nD)

/-- The first cloud the region finds is the reference's slice of the first argument. -/
theorem P_eq' : P m c = P' (m ((c.tc : Thread Cert.KernelIdeal.nD Cert.KernelIdeal.τ).loc Cert.KernelIdeal.main_arg0)) :=
  (P_eq m c).trans rfl

/-- The second cloud the region finds is the reference's slice of the second argument. -/
theorem Q_eq' : Q m c = Q' (m ((c.tc : Thread Cert.KernelIdeal.nD Cert.KernelIdeal.τ).loc Cert.KernelIdeal.main_arg1)) :=
  (Q_eq m c).trans rfl

/-- The reference's result is the loss of the arrays the kernel's region wrote. -/
theorem ref_eq : Cert.ReferenceIdeal.Read.val_main_v27 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
    = lossOf (G2 m c) (G3 m c) := by
  have e22 : Cert.ReferenceIdeal.Read.val_main_v22 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      = shapeCast Cert.KernelIdeal.S32x2048 (G2 m c) Cert.KernelIdeal.Gen.shapeCasts_S32x1x2048_S32x2048 := by
    funext j
    obtain ⟨b, n, rfl⟩ : ∃ (b : Fin 32) (n : Fin 2048), j = ix2 b n := ⟨j 0, j 1, eq_ix2 j⟩
    rw [v22_apply, ← P_eq', ← Q_eq']
    exact ((shapeCast_a1b_ab_apply (G2 m c) _ b n).trans (G2_at m c _ b n rfl rfl)).symm
  have e23 : Cert.ReferenceIdeal.Read.val_main_v23 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      = shapeCast Cert.KernelIdeal.S32x2048 (G3 m c) Cert.KernelIdeal.Gen.shapeCasts_S32x1x2048_S32x2048 := by
    funext j
    obtain ⟨b, k, rfl⟩ : ∃ (b : Fin 32) (k : Fin 2048), j = ix2 b k := ⟨j 0, j 1, eq_ix2 j⟩
    rw [v23_apply, ← P_eq', ← Q_eq']
    exact ((shapeCast_a1b_ab_apply (G3 m c) _ b k).trans (G3_at m c _ b k rfl rfl)).symm
  unfold Cert.ReferenceIdeal.Read.val_main_v27 Cert.ReferenceIdeal.Read.val_main_v26 Cert.ReferenceIdeal.Read.val_main_v24
  rw [e22, e23]
  rfl

end Cert.Proof.Bridge

end
-- ==== Proof.lean ====
/-
  The certificate's five claims.

  The three frames: both readings of the kernel program terminate without a fault and leave the argument arrays as
  they were (the region's launch and its body run at every grid point); the reference does too, by its run with the
  result dropped. The idealization rewrote nothing. The algebraic claim: over the extended reals the kernel program
  ends with the loss of the two nearest-neighbour arrays its region wrote — each point's minimum distance to the
  other cloud, the second direction accumulated tile by tile — and the reference ends with the same loss of its two
  minimum reductions of the same distances.
-/
import proofs.«169854_j16844861735655_2_alg».proof.Defs
import proofs.«169854_j16844861735655_2_alg».proof.Proof.Gen.Kernel
import proofs.«169854_j16844861735655_2_alg».proof.Proof.Gen.Kernel.Skeleton
import proofs.«169854_j16844861735655_2_alg».proof.Proof.Gen.Kernel.Launch
import proofs.«169854_j16844861735655_2_alg».proof.Proof.Gen.Kernel.Points
import proofs.«169854_j16844861735655_2_alg».proof.Proof.Gen.Kernel.Frame
import proofs.«169854_j16844861735655_2_alg».proof.Proof.Gen.KernelIdeal
import proofs.«169854_j16844861735655_2_alg».proof.Proof.Gen.KernelIdeal.Skeleton
import proofs.«169854_j16844861735655_2_alg».proof.Proof.Gen.KernelIdeal.Launch
import proofs.«169854_j16844861735655_2_alg».proof.Proof.Gen.KernelIdeal.Points
import proofs.«169854_j16844861735655_2_alg».proof.Proof.Gen.KernelIdeal.Frame
import proofs.«169854_j16844861735655_2_alg».proof.Proof.Gen.ReferenceIdeal
import proofs.«169854_j16844861735655_2_alg».proof.Proof.Gen.Pre_finite_inputs
import proofs.«169854_j16844861735655_2_alg».proof.Proof.Gen.ReferenceIdeal.Run
import proofs.«169854_j16844861735655_2_alg».proof.Proof.Gen.ReferenceIdeal.Read
import proofs.«169854_j16844861735655_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the nearest-neighbour distances of the same two clouds. -/
theorem algebraic : Cert.algebraic_KernelIdeal_ReferenceIdeal := by
  intro m ρ m' ρ' _ hagree
  refine ⟨fun c => Cert.KernelIdeal.Loss.lossOf (Cert.KernelIdeal.Arrays.G2 m c) (Cert.KernelIdeal.Arrays.G3 m c),
    Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2]
  exact Cert.Proof.Bridge.ref_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
